-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run, with the contents of every buffer at its end named.

  @main is nine segments — host stretches and the four pallas_calls — and the contents of every buffer at each
  segment boundary are a fold from the launch memory.  Every weakly fair execution terminates without a fault, and
  at the end every unscoped buffer of every core holds the last boundary's contents: so does the result buffer, and
  the six argument arrays hold what they were launched with.
-/
import proofs.«108618_j12008728560135_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Whatever follows from "every unscoped buffer of every core holds the last boundary's contents" holds of every
    final state: the segments chain from the launch contents to those, the last thread state is read against the
    final memory, and nothing is owed at the end. -/
theorem run_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The run with the result named: the result buffer ends at the last boundary's contents of it, and the six
    argument arrays end as launched (no host operation and no pallas_call writes one). -/
theorem run_last : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_boundary m ρ fun s h c =>
    ⟨h c _ (mem_uc main_v61 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩

end Cert.KernelRun

end
-- ==== Proof.Spec.lean ====
/-
  The two-layer graph convolution as one function of the argument arrays.

  With self loops appended to the edge list, every edge (r, c) carries the weight dinv r · dinv c, where dinv is the
  inverse square root of a node's in-degree (zero where the degree is not positive).  One layer multiplies the node
  features by a weight matrix, sends every edge's source row, scaled by the edge's weight, to the edge's destination
  (a sum over the edges that arrive there), and adds a bias to every row; between the two layers negative entries are
  replaced by zero.  The sparse step (`agg`) is kept as one function of the edge list and of the matrix it is applied
  to: both programs apply it, spelt the same way, and nothing here opens it.
-/
import proofs.«108618_j12008728560135_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The source node of every edge: row 0 of the edge list, then one self loop per node. -/
def row0 (E : (⟨S2x1600000, .i32⟩ : BufTy).Contents (Elt F)) : (⟨S1700000, .i32⟩ : BufTy).Contents (Elt F) :=
  (concatenate S1700000 0 [⟨S1600000, (shapeCast _ (extractStridedSlice S1x1600000 ![0, 0] E slices_S2x1600000_S1x1600000_0_0) shapeCasts_S1x1600000_S1600000)⟩, ⟨S100000, (iotaInDim S100000 32 0)⟩] concatenates_S1600000_S100000_S1700000_d0)

/-- The destination node of every edge: row 1 of the edge list, then one self loop per node. -/
def col0 (E : (⟨S2x1600000, .i32⟩ : BufTy).Contents (Elt F)) : (⟨S1700000, .i32⟩ : BufTy).Contents (Elt F) :=
  (concatenate S1700000 0 [⟨S1600000, (shapeCast _ (extractStridedSlice S1x1600000 ![1, 0] E slices_S2x1600000_S1x1600000_1_0) shapeCasts_S1x1600000_S1600000)⟩, ⟨S100000, (iotaInDim S100000 32 0)⟩] concatenates_S1600000_S100000_S1700000_d0)

/-- Every edge's weight dinv(source) · dinv(destination): the in-degrees are counted by adding a one at every edge's
    destination, dinv is their inverse square root where positive and zero elsewhere, and a negative node number is
    counted from the end when dinv is looked up. -/
def norm1 (E : (⟨S2x1600000, .i32⟩ : BufTy).Contents (Elt F)) : (⟨S1700000, .f32⟩ : BufTy).Contents (Elt F) :=
  (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (col0 E)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (col0 E)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (row0 E) (broadcastInDim S1700000 ![] bcast_S_S1700000 (constantI S_ 32 0#32))) (addi (row0 E) (broadcastInDim S1700000 ![] bcast_S_S1700000 (constantI S_ 32 100000#32))) (row0 E)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (col0 E)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (col0 E)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (col0 E) (broadcastInDim S1700000 ![] bcast_S_S1700000 (constantI S_ 32 0#32))) (addi (col0 E) (broadcastInDim S1700000 ![] bcast_S_S1700000 (constantI S_ 32 100000#32))) (col0 E)))))

/-- The destinations as a column of scatter indices. -/
def colB (E : (⟨S2x1600000, .i32⟩ : BufTy).Contents (Elt F)) : (⟨S1700000x1, .i32⟩ : BufTy).Contents (Elt F) :=
  broadcastInDim S1700000x1 ![0] bcast_S1700000_S1700000x1_0 (col0 E)

/-- The sources, a negative entry counted from the end, as a column of gather indices. -/
def rowB (E : (⟨S2x1600000, .i32⟩ : BufTy).Contents (Elt F)) : (⟨S1700000x1, .i32⟩ : BufTy).Contents (Elt F) :=
  broadcastInDim S1700000x1 ![0] bcast_S1700000_S1700000x1_0 (select (cmpi .slt (row0 E) (broadcastInDim S1700000 ![] bcast_S_S1700000 (constantI S_ 32 0#32))) (addi (row0 E) (broadcastInDim S1700000 ![] bcast_S_S1700000 (constantI S_ 32 100000#32))) (row0 E))

/-- The weights repeated along the feature axis. -/
def normB (E : (⟨S2x1600000, .i32⟩ : BufTy).Contents (Elt F)) : (⟨S1700000x128, .f32⟩ : BufTy).Contents (Elt F) :=
  broadcastInDim S1700000x128 ![0, 1] bcast_S1700000x1_S1700000x128_0_1 (broadcastInDim S1700000x1 ![0] bcast_S1700000_S1700000x1_0 (norm1 E))

/-- The all-zero feature matrix. -/
def zeros : (⟨S100000x128, .f32⟩ : BufTy).Contents (Elt F) :=
  (broadcastInDim S100000x128 ![] bcast_S_S100000x128 (constant S_ .f32 0x00000000#32))

/-- The sparse step: row `c` of the result is the sum, over the edges arriving at `c`, of the edge's source row of
    `xw` times the edge's weight. -/
def agg (E : (⟨S2x1600000, .i32⟩ : BufTy).Contents (Elt F)) (xw : (⟨S100000x128, .f32⟩ : BufTy).Contents (Elt F)) :
    (⟨S100000x128, .f32⟩ : BufTy).Contents (Elt F) :=
  Host.scatterAdd scatter_S100000x128_S1700000x1_S1700000x128_1_0_0_1 zeros (colB E) (mulf (Host.gather gather_S100000x128_S1700000x1_S1700000x128_1_0_n_n_0_1_1128 xw (rowB E)) (normB E))

/-- A bias vector as a one-row matrix. -/
def biasRow (b : (⟨S128, .f32⟩ : BufTy).Contents (Elt F)) : (⟨S1x128, .f32⟩ : BufTy).Contents (Elt F) :=
  broadcastInDim S1x128 ![1] bcast_S128_S1x128_1 b

/-- A one-row matrix repeated down every row of the feature matrix. -/
def biasRows (r : (⟨S1x128, .f32⟩ : BufTy).Contents (Elt F)) : (⟨S100000x128, .f32⟩ : BufTy).Contents (Elt F) :=
  broadcastInDim S100000x128 ![0, 1] bcast_S1x128_S100000x128_0_1 r

/-- The first layer's product x · W1. -/
def prod1 (x : (⟨S100000x256, .f32⟩ : BufTy).Contents (Elt F)) (W1 : (⟨S256x128, .f32⟩ : BufTy).Contents (Elt F)) :
    (⟨S100000x128, .f32⟩ : BufTy).Contents (Elt F) :=
  Host.dotGeneral dot_S100000x256_S256x128_S100000x128_1_0_0_1_n_n none x W1

/-- The second layer's product h · W2. -/
def prod2 (h : (⟨S100000x128, .f32⟩ : BufTy).Contents (Elt F)) (W2 : (⟨S128x128, .f32⟩ : BufTy).Contents (Elt F)) :
    (⟨S100000x128, .f32⟩ : BufTy).Contents (Elt F) :=
  Host.dotGeneral dot_S100000x128_S128x128_S100000x128_1_0_0_1_n_n none h W2

/-- A bias row added to every row. -/
def addBias (A : (⟨S100000x128, .f32⟩ : BufTy).Contents (Elt F)) (r : (⟨S1x128, .f32⟩ : BufTy).Contents (Elt F)) :
    (⟨S100000x128, .f32⟩ : BufTy).Contents (Elt F) :=
  addf A (biasRows r)

/-- A bias row added to every row, negative entries then replaced by zero. -/
def addBiasRelu (A : (⟨S100000x128, .f32⟩ : BufTy).Contents (Elt F)) (r : (⟨S1x128, .f32⟩ : BufTy).Contents (Elt F)) :
    (⟨S100000x128, .f32⟩ : BufTy).Contents (Elt F) :=
  maximumf (addf A (biasRows r)) zeros

/-- The two layers: every entry of the result as a function of the six argument arrays, the bias vectors given as
    one-row matrices. -/
def out (x : (⟨S100000x256, .f32⟩ : BufTy).Contents (Elt F)) (E : (⟨S2x1600000, .i32⟩ : BufTy).Contents (Elt F))
    (W1 : (⟨S256x128, .f32⟩ : BufTy).Contents (Elt F)) (r1 : (⟨S1x128, .f32⟩ : BufTy).Contents (Elt F))
    (W2 : (⟨S128x128, .f32⟩ : BufTy).Contents (Elt F)) (r2 : (⟨S1x128, .f32⟩ : BufTy).Contents (Elt F)) :
    (⟨S100000x128, .f32⟩ : BufTy).Contents (Elt F) :=
  addBias (agg E (prod2 (addBiasRelu (agg E (prod1 x W1)) r1) W2)) r2

end Cert.Gcn

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.Payloads.lean ====
/-
  What each kernel body computes, entry by entry, against the two-layer convolution's steps.

  A body sees one block of 10000 rows.  The matrix-product bodies contract a row of the block with a column of the
  whole weight matrix, the change of float format on the way in being the identity on the extended reals and the zero
  accumulator adding nothing; the bias bodies add the one bias row to every row of the block (and the first one then
  replaces negative entries by zero).  So an entry (p, q) of what a body stores is the corresponding step of the
  convolution at the array entry (r, q), whenever row p of the body's block is row r of the array.
-/
import proofs.«108618_j12008728560135_1_alg».proof.Proof.Gen.KernelIdeal.Skeleton
import proofs.«108618_j12008728560135_1_alg».proof.Proof.Spec
import proofs.«108618_j12008728560135_1_alg».proof.Proof.LibPlainDot
import proofs.«108618_j12008728560135_1_alg».proof.Proof.LibHostDot
import Idealize.ShloMosaic.Lib.Pipeline.Value
import Idealize.ShloMosaic.Lib.ValueIdx
import Idealize.ShloMosaic.Lib.ValueLayout

noncomputable section

namespace Cert.Payloads

open Cert.KernelIdeal Cert.KernelIdeal.Gen Idealize.ShloMosaic Idealize.ShloMosaic.ValueIdx

/-! ## The convolution's steps at an entry -/

/-- The first product at an entry: row r of x against column q of W1. -/
theorem prod1_apply (A : (⟨Cert.ReferenceIdeal.S100000x256, .f32⟩ : BufTy).Contents (Elt Ideal))
    (B : (⟨Cert.ReferenceIdeal.S256x128, .f32⟩ : BufTy).Contents (Elt Ideal)) (r : Fin 100000) (q : Fin 128) :
    Cert.Gcn.prod1 (F := Ideal) A B (ix2 r q) = ∑ k : Fin 256, A (ix2 r k) * B (ix2 k q) := by
  unfold Cert.Gcn.prod1
  exact Cert.HostDot.dotGeneral_plain_apply (M := 100000) (K := 256) (N := 128) none A B r q

/-- The second product at an entry: row r of h against column q of W2. -/
theorem prod2_apply (A : (⟨Cert.ReferenceIdeal.S100000x128, .f32⟩ : BufTy).Contents (Elt Ideal))
    (B : (⟨Cert.ReferenceIdeal.S128x128, .f32⟩ : BufTy).Contents (Elt Ideal)) (r : Fin 100000) (q : Fin 128) :
    Cert.Gcn.prod2 (F := Ideal) A B (ix2 r q) = ∑ k : Fin 128, A (ix2 r k) * B (ix2 k q) := by
  unfold Cert.Gcn.prod2
  exact Cert.HostDot.dotGeneral_plain_apply (M := 100000) (K := 128) (N := 128) none A B r q

/-- The bias row repeated down the rows, at an entry: the row's entry in that column. -/
theorem biasRows_apply (b : (⟨Cert.ReferenceIdeal.S1x128, .f32⟩ : BufTy).Contents (Elt Ideal)) (r : Fin 100000) (q : Fin 128) :
    Cert.Gcn.biasRows (F := Ideal) b (ix2 r q) = b (ix2 (0 : Fin 1) q) := by
  unfold Cert.Gcn.biasRows
  exact broadcastInDim_apply _ _ b (ix2 r q) (ix2 (0 : Fin 1) q) (fun a => by
    match a with
    | ⟨0, _⟩ => rfl
    | ⟨1, _⟩ => rfl)

/-- The zero matrix at an entry. -/
theorem zeros_apply (i : Cert.ReferenceIdeal.S100000x128.Idx) :
    Cert.Gcn.zeros (F := Ideal) i = Ideal.ofBits .f32 0x00000000#32 := by
  unfold Cert.Gcn.zeros
  exact broadcastInDim_apply _ _ _ i ix0 (fun a => a.elim0)

/-! ## The bodies' payloads at an entry -/

/-- The first product body: entry (p, q) of what it stores is row p of its left block against column q of its
    right block. -/
theorem pay0_apply (x0 : Vec Ideal S10000x256 .f32) (x1 : Vec Ideal S256x128 .f32) (p : Fin 10000) (q : Fin 128) :
    k0_pay1 (F := Ideal) x0 x1 (ix2 p q) = ∑ k : Fin 256, x0 (ix2 p k) * x1 (ix2 k q) := by
  unfold k0_pay1
  exact Cert.PlainDot.matmul_zero_plain_apply (M := 10000) (K := 256) (N := 128) none
    (truncf .bf16 x0 bitsLt_bf16_f32) (truncf .bf16 x1 bitsLt_bf16_f32) p q

/-- The second product body, the same with 128 columns on the left. -/
theorem pay2_apply (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  refine (Cert.PlainDot.matmul_zero_plain_apply (M := 10000) (K := 128) (N := 128) none
    (truncf .bf16 (shapeCast S10000x128 x0 shapeCasts_S10000x128_S10000x128) bitsLt_bf16_f32) (truncf .bf16 x1 bitsLt_bf16_f32) p q).trans ?_
  refine Finset.sum_congr rfl fun k _ => ?_
  show shapeCast S10000x128 x0 shapeCasts_S10000x128_S10000x128 (ix2 p k) * x1 (ix2 k q) = _
  rw [shapeCast_self]

/-- The bias body that also clips at zero: entry (p, q) is max (x0 (p, q) + row q, 0). -/
theorem pay1_apply (x0 : Vec Ideal S10000x128 .f32) (x1 : Vec Ideal S1x128 .f32) (p : Fin 10000) (q : Fin 128) :
    k1_pay1 (F := Ideal) x0 x1 (ix2 p q) = max (x0 (ix2 p q) + x1 (ix2 (0 : Fin 1) q)) (Ideal.ofBits .f32 0x00000000#32) := by
  unfold k1_pay1
  show max (shapeCast S10000x128 x0 shapeCasts_S10000x128_S10000x128 (ix2 p q)
      + broadcastTo S10000x128 (shapeCast S1x128 x1 shapeCasts_S1x128_S1x128) broadcasts_S1x128_S10000x128 (ix2 p q)) _ = _
  rw [shapeCast_self, broadcastTo_1b_ab_apply, shapeCast_self]
  rfl

/-- The plain bias body: entry (p, q) is x0 (p, q) + row q. -/
theorem pay3_apply (x0 : Vec Ideal S10000x128 .f32) (x1 : Vec Ideal S1x128 .f32) (p : Fin 10000) (q : Fin 128) :
    k3_pay1 (F := Ideal) x0 x1 (ix2 p q) = x0 (ix2 p q) + x1 (ix2 (0 : Fin 1) q) := by
  unfold k3_pay1
  show shapeCast S10000x128 x0 shapeCasts_S10000x128_S10000x128 (ix2 p q)
      + broadcastTo S10000x128 (shapeCast S1x128 x1 shapeCasts_S1x128_S1x128) broadcasts_S1x128_S10000x128 (ix2 p q) = _
  rw [shapeCast_self, broadcastTo_1b_ab_apply, shapeCast_self]

/-! ## A block's entry against the array's -/

/-- First product: if row p of the left block is row r of A and the right block is B in column q, the body's entry
    (p, q) is the product's entry (r, q). -/
theorem block0 (A : (⟨Cert.ReferenceIdeal.S100000x256, .f32⟩ : BufTy).Contents (Elt Ideal))
    (B : (⟨Cert.ReferenceIdeal.S256x128, .f32⟩ : BufTy).Contents (Elt Ideal))
    (x0 : Vec Ideal S10000x256 .f32) (x1 : Vec Ideal S256x128 .f32) (r : Fin 100000) (p : Fin 10000) (q : Fin 128)
    (h0 : ∀ k : Fin 256, x0 (ix2 p k) = A (ix2 r k)) (h1 : ∀ k : Fin 256, x1 (ix2 k q) = B (ix2 k q)) :
    k0_pay1 (F := Ideal) x0 x1 (ix2 p q) = Cert.Gcn.prod1 (F := Ideal) A B (ix2 r q) := by
  rw [pay0_apply, prod1_apply]
  exact Finset.sum_congr rfl fun k _ => by rw [h0 k, h1 k]

/-- Second product, the same. -/
theorem block2 (A : (⟨Cert.ReferenceIdeal.S100000x128, .f32⟩ : BufTy).Contents (Elt Ideal))
    (B : (⟨Cert.ReferenceIdeal.S128x128, .f32⟩ : BufTy).Contents (Elt Ideal))
    (x0 : Vec Ideal S10000x128 .f32) (x1 : Vec Ideal S128x128 .f32) (r : Fin 100000) (p : Fin 10000) (q : Fin 128)
    (h0 : ∀ k : Fin 128, x0 (ix2 p k) = A (ix2 r k)) (h1 : ∀ k : Fin 128, x1 (ix2 k q) = B (ix2 k q)) :
    k2_pay1 (F := Ideal) x0 x1 (ix2 p q) = Cert.Gcn.prod2 (F := Ideal) A B (ix2 r q) := by
  rw [pay2_apply, prod2_apply]
  exact Finset.sum_congr rfl fun k _ => by rw [h0 k, h1 k]

/-- Bias and clip: if entry (p, q) of the block is entry (r, q) of A and the bias block is the bias row in column q,
    the body's entry is the step's. -/
theorem block1 (A : (⟨Cert.ReferenceIdeal.S100000x128, .f32⟩ : BufTy).Contents (Elt Ideal))
    (b : (⟨Cert.ReferenceIdeal.S1x128, .f32⟩ : BufTy).Contents (Elt Ideal))
    (x0 : Vec Ideal S10000x128 .f32) (x1 : Vec Ideal S1x128 .f32) (r : Fin 100000) (p : Fin 10000) (q : Fin 128)
    (h0 : x0 (ix2 p q) = A (ix2 r q)) (h1 : x1 (ix2 (0 : Fin 1) q) = b (ix2 (0 : Fin 1) q)) :
    k1_pay1 (F := Ideal) x0 x1 (ix2 p q) = Cert.Gcn.addBiasRelu (F := Ideal) A b (ix2 r q) := by
  rw [pay1_apply, h0, h1]
  unfold Cert.Gcn.addBiasRelu
  show _ = max (A (ix2 r q) + Cert.Gcn.biasRows (F := Ideal) b (ix2 r q)) (Cert.Gcn.zeros (F := Ideal) (ix2 r q))
  rw [biasRows_apply, zeros_apply]

/-- Bias only, the same. -/
theorem block3 (A : (⟨Cert.ReferenceIdeal.S100000x128, .f32⟩ : BufTy).Contents (Elt Ideal))
    (b : (⟨Cert.ReferenceIdeal.S1x128, .f32⟩ : BufTy).Contents (Elt Ideal))
    (x0 : Vec Ideal S10000x128 .f32) (x1 : Vec Ideal S1x128 .f32) (r : Fin 100000) (p : Fin 10000) (q : Fin 128)
    (h0 : x0 (ix2 p q) = A (ix2 r q)) (h1 : x1 (ix2 (0 : Fin 1) q) = b (ix2 (0 : Fin 1) q)) :
    k3_pay1 (F := Ideal) x0 x1 (ix2 p q) = Cert.Gcn.addBias (F := Ideal) A b (ix2 r q) := by
  rw [pay3_apply, h0, h1]
  unfold Cert.Gcn.addBias
  show _ = A (ix2 r q) + Cert.Gcn.biasRows (F := Ideal) b (ix2 r q)
  rw [biasRows_apply]

end Cert.Payloads

end
-- ==== Proof.Region0.lean ====
/-
  The first pallas_call's result array: the product x · W1.

  The call walks ten grid points; point t reads rows 10000·t … 10000·t + 9999 of the left array and the whole right
  array, and writes back the same rows of the result.  What it writes is that block of ONE array, the product of the
  two arrays as the call finds them, and the ten blocks cover all 100000 rows: so the result array ends holding the
  product.
-/
import proofs.«108618_j12008728560135_1_alg».proof.Proof.Gen.KernelIdeal.Frame
import proofs.«108618_j12008728560135_1_alg».proof.Proof.Payloads
import Idealize.ShloMosaic.Lib.Pipeline.Value

set_option maxRecDepth 16384

noncomputable section

namespace Cert.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the first operand's and the result's blocks move down with the point,
    the second operand's block stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 10000·t … 10000·t + 9999 of the product of the two arrays as the call finds them. -/
theorem flushed (c : Dev nD) (t : Fin cfg0.N) :
    (dat0 V c).flushed 2 t
      = ((cfg0.win 2).blk t).view.read (Elt Ideal) (Cert.Gcn.prod1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  obtain ⟨e0, e1, e2, e3, e4, e5⟩ := idx t
  have hN : t.val < 10 := lt_of_lt_of_eq t.isLt N_0
  funext j
  have hj0 : (j 0).val < 10000 := (j 0).isLt
  have hj1 : (j 1).val < 128 := (j 1).isLt
  have hr : t.val * 10000 + (j 0).val < 100000 := by omega
  have hj : j = ix2 (⟨(j 0).val, hj0⟩ : Fin 10000) (⟨(j 1).val, hj1⟩ : Fin 128) := by
    funext a
    match a with
    | ⟨0, _⟩ => rfl
    | ⟨1, _⟩ => rfl
  have hemb : ((cfg0.win 2).blk t).view.emb j
      = ix2 (⟨t.val * 10000 + (j 0).val, hr⟩ : Fin 100000) (⟨(j 1).val, hj1⟩ : Fin 128) := by
    funext a; apply Fin.ext
    match a with
    | ⟨0, _⟩ => show win0_2.index t (0 : Fin 2) * 10000 + 1 * (j 0).val = t.val * 10000 + (j 0).val; omega
    | ⟨1, _⟩ => show win0_2.index t (1 : Fin 2) * 128 + 1 * (j 1).val = (j 1).val; omega
  show k0_pay1 (iblk0 V c 0 t) (iblk0 V c 1 t) j
    = Cert.Gcn.prod1 (F := Ideal) (V c main_arg0) (V c main_arg2) (((cfg0.win 2).blk t).view.emb j)
  rw [hemb]
  refine (congrArg (k0_pay1 (iblk0 V c 0 t) (iblk0 V c 1 t)) hj).trans ?_
  refine Cert.Payloads.block0 (V c main_arg0) (V c main_arg2) (iblk0 V c 0 t) (iblk0 V c 1 t)
    ⟨t.val * 10000 + (j 0).val, hr⟩ ⟨(j 0).val, hj0⟩ ⟨(j 1).val, hj1⟩ (fun k => ?_) (fun k => ?_)
  · show V c main_arg0 (((cfg0.win 0).blk t).view.emb (ix2 (⟨(j 0).val, hj0⟩ : Fin 10000) k))
      = V c main_arg0 (ix2 (⟨t.val * 10000 + (j 0).val, hr⟩ : Fin 100000) k)
    refine congrArg (V c main_arg0) (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 256 + 1 * k.val = k.val; omega
  · show V c main_arg2 (((cfg0.win 1).blk t).view.emb (ix2 k (⟨(j 1).val, hj1⟩ : Fin 128)))
      = V c main_arg2 (ix2 k (⟨(j 1).val, hj1⟩ : Fin 128))
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = (j 1).val; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Every row of the result array is in the block of the point its row number divided by 10000 names. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < grid0.N := by rw [N_0]; omega
  obtain ⟨e0, e1, e2, e3, e4, e5⟩ := idx ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    omega

/-- The result array after the call is the product of the two arrays as the call finds them. -/
theorem arr (c : Dev nD) :
    (dat0 V c).arrAt 2 cfg0.N = Cert.Gcn.prod1 (F := Ideal) (V c main_arg0) (V c main_arg2) :=
  (dat0 V c).arrAt_eq_of_cover 2 _ (fun t _ => flushed V c t) cover

end Cert.Region0

end
-- ==== Proof.Region1.lean ====
/-
  The second pallas_call's result array: the bias row added to every row, negative entries replaced by zero.

  The call walks ten grid points; point t reads rows 10000·t … 10000·t + 9999 of the matrix and the one bias row, and
  writes back the same rows of the result.  What it writes is that block of ONE array — the matrix as the call finds it
  with the bias row added to every row and then clipped at zero — and the ten blocks cover all 100000 rows.
-/
import proofs.«108618_j12008728560135_1_alg».proof.Proof.Gen.KernelIdeal.Frame
import proofs.«108618_j12008728560135_1_alg».proof.Proof.Payloads
import Idealize.ShloMosaic.Lib.Pipeline.Value

set_option maxRecDepth 16384

noncomputable section

namespace Cert.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the first operand's and the result's blocks move down with the point,
    the second operand's block stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 10000·t … 10000·t + 9999 of the matrix as the call finds it, the bias row added to every row and negative entries replaced by zero. -/
theorem flushed (c : Dev nD) (t : Fin cfg1.N) :
    (dat1 V c).flushed 2 t
      = ((cfg1.win 2).blk t).view.read (Elt Ideal) (Cert.Gcn.addBiasRelu (F := Ideal) (V c main_v43) (V c main_v44)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx t
  have hN : t.val < 10 := lt_of_lt_of_eq t.isLt N_1
  funext j
  have hj0 : (j 0).val < 10000 := (j 0).isLt
  have hj1 : (j 1).val < 128 := (j 1).isLt
  have hr : t.val * 10000 + (j 0).val < 100000 := by omega
  have hj : j = ix2 (⟨(j 0).val, hj0⟩ : Fin 10000) (⟨(j 1).val, hj1⟩ : Fin 128) := by
    funext a
    match a with
    | ⟨0, _⟩ => rfl
    | ⟨1, _⟩ => rfl
  have hemb : ((cfg1.win 2).blk t).view.emb j
      = ix2 (⟨t.val * 10000 + (j 0).val, hr⟩ : Fin 100000) (⟨(j 1).val, hj1⟩ : Fin 128) := by
    funext a; apply Fin.ext
    match a with
    | ⟨0, _⟩ => show win1_2.index t (0 : Fin 2) * 10000 + 1 * (j 0).val = t.val * 10000 + (j 0).val; omega
    | ⟨1, _⟩ => show win1_2.index t (1 : Fin 2) * 128 + 1 * (j 1).val = (j 1).val; omega
  show k1_pay1 (iblk1 V c 0 t) (iblk1 V c 1 t) j
    = Cert.Gcn.addBiasRelu (F := Ideal) (V c main_v43) (V c main_v44) (((cfg1.win 2).blk t).view.emb j)
  rw [hemb]
  refine (congrArg (k1_pay1 (iblk1 V c 0 t) (iblk1 V c 1 t)) hj).trans ?_
  refine Cert.Payloads.block1 (V c main_v43) (V c main_v44) (iblk1 V c 0 t) (iblk1 V c 1 t)
    ⟨t.val * 10000 + (j 0).val, hr⟩ ⟨(j 0).val, hj0⟩ ⟨(j 1).val, hj1⟩ ?_ ?_
  · show V c main_v43 (((cfg1.win 0).blk t).view.emb (ix2 (⟨(j 0).val, hj0⟩ : Fin 10000) (⟨(j 1).val, hj1⟩ : Fin 128)))
      = V c main_v43 (ix2 (⟨t.val * 10000 + (j 0).val, hr⟩ : Fin 100000) (⟨(j 1).val, hj1⟩ : Fin 128))
    refine congrArg (V c main_v43) (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 128 + 1 * (j 1).val = (j 1).val; omega
  · show V c main_v44 (((cfg1.win 1).blk t).view.emb (ix2 (0 : Fin 1) (⟨(j 1).val, hj1⟩ : Fin 128)))
      = V c main_v44 (ix2 (0 : Fin 1) (⟨(j 1).val, hj1⟩ : Fin 128))
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * (j 1).val = (j 1).val; omega

/-- An index of the result array is in point t's block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v45).slice (win1_2.rect t)).set ↔ _
  rw [View.set_slice_whole, Rect.mem_set_unit]
  exact Iff.rfl

/-- Every row of the result array is in the block of the point its row number divided by 10000 names. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 10000 < grid1.N := by rw [N_1]; omega
  obtain ⟨e0, e1, e2, e3, e4, e5⟩ := idx ⟨(i 0).val / 10000, ht⟩
  have e4' : win1_2.index ⟨(i 0).val / 10000, ht⟩ (0 : Fin 2) = (i 0).val / 10000 := e4
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    omega

/-- The result array after the call is the matrix as the call finds it, the bias row added to every row and negative entries replaced by zero. -/
theorem arr (c : Dev nD) :
    (dat1 V c).arrAt 2 cfg1.N = Cert.Gcn.addBiasRelu (F := Ideal) (V c main_v43) (V c main_v44) :=
  (dat1 V c).arrAt_eq_of_cover 2 _ (fun t _ => flushed V c t) cover

end Cert.Region1

end
-- ==== Proof.Region2.lean ====
/-
  The third pallas_call's result array: the product h · W2.

  The call walks ten grid points; point t reads rows 10000·t … 10000·t + 9999 of the left array and the whole right
  array, and writes back the same rows of the result.  What it writes is that block of ONE array, the product of the
  two arrays as the call finds them, and the ten blocks cover all 100000 rows.
-/
import proofs.«108618_j12008728560135_1_alg».proof.Proof.Gen.KernelIdeal.Frame
import proofs.«108618_j12008728560135_1_alg».proof.Proof.Payloads
import Idealize.ShloMosaic.Lib.Pipeline.Value

set_option maxRecDepth 16384

noncomputable section

namespace Cert.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the first operand's and the result's blocks move down with the point,
    the second operand's block stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is rows 10000·t … 10000·t + 9999 of the product of the two arrays as the call finds them. -/
theorem flushed (c : Dev nD) (t : Fin cfg2.N) :
    (dat2 V c).flushed 2 t
      = ((cfg2.win 2).blk t).view.read (Elt Ideal) (Cert.Gcn.prod2 (F := Ideal) (V c main_v45) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx t
  have hN : t.val < 10 := lt_of_lt_of_eq t.isLt N_2
  funext j
  have hj0 : (j 0).val < 10000 := (j 0).isLt
  have hj1 : (j 1).val < 128 := (j 1).isLt
  have hr : t.val * 10000 + (j 0).val < 100000 := by omega
  have hj : j = ix2 (⟨(j 0).val, hj0⟩ : Fin 10000) (⟨(j 1).val, hj1⟩ : Fin 128) := by
    funext a
    match a with
    | ⟨0, _⟩ => rfl
    | ⟨1, _⟩ => rfl
  have hemb : ((cfg2.win 2).blk t).view.emb j
      = ix2 (⟨t.val * 10000 + (j 0).val, hr⟩ : Fin 100000) (⟨(j 1).val, hj1⟩ : Fin 128) := by
    funext a; apply Fin.ext
    match a with
    | ⟨0, _⟩ => show win2_2.index t (0 : Fin 2) * 10000 + 1 * (j 0).val = t.val * 10000 + (j 0).val; omega
    | ⟨1, _⟩ => show win2_2.index t (1 : Fin 2) * 128 + 1 * (j 1).val = (j 1).val; omega
  show k2_pay1 (iblk2 V c 0 t) (iblk2 V c 1 t) j
    = Cert.Gcn.prod2 (F := Ideal) (V c main_v45) (V c main_arg4) (((cfg2.win 2).blk t).view.emb j)
  rw [hemb]
  refine (congrArg (k2_pay1 (iblk2 V c 0 t) (iblk2 V c 1 t)) hj).trans ?_
  refine Cert.Payloads.block2 (V c main_v45) (V c main_arg4) (iblk2 V c 0 t) (iblk2 V c 1 t)
    ⟨t.val * 10000 + (j 0).val, hr⟩ ⟨(j 0).val, hj0⟩ ⟨(j 1).val, hj1⟩ (fun k => ?_) (fun k => ?_)
  · show V c main_v45 (((cfg2.win 0).blk t).view.emb (ix2 (⟨(j 0).val, hj0⟩ : Fin 10000) k))
      = V c main_v45 (ix2 (⟨t.val * 10000 + (j 0).val, hr⟩ : Fin 100000) k)
    refine congrArg (V c main_v45) (funext fun a => Fin.ext ?_)
    match a with
    | ⟨0, _⟩ => show win2_0.index t (0 : Fin 2) * 10000 + 1 * (j 0).val = t.val * 10000 + (j 0).val; omega
    | ⟨1, _⟩ => show win2_0.index t (1 : Fin 2) * 128 + 1 * k.val = k.val; omega
  · show V c main_arg4 (((cfg2.win 1).blk t).view.emb (ix2 k (⟨(j 1).val, hj1⟩ : Fin 128)))
      = V c main_arg4 (ix2 k (⟨(j 1).val, hj1⟩ : Fin 128))
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = (j 1).val; omega

/-- An index of the result array is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v46).slice (win2_2.rect t)).set ↔ _
  rw [View.set_slice_whole, Rect.mem_set_unit]
  exact Iff.rfl

/-- Every row of the result array is in the block of the point its row number divided by 10000 names. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 10000 < grid2.N := by rw [N_2]; omega
  obtain ⟨e0, e1, e2, e3, e4, e5⟩ := idx ⟨(i 0).val / 10000, ht⟩
  have e4' : win2_2.index ⟨(i 0).val / 10000, ht⟩ (0 : Fin 2) = (i 0).val / 10000 := e4
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 128 ≤ (i 1).val
      ∧ (i 1).val < win2_2.index ⟨(i 0).val / 10000, ht⟩ (1 : Fin 2) * 128 + 128
    omega

/-- The result array after the call is the product of the two arrays as the call finds them. -/
theorem arr (c : Dev nD) :
    (dat2 V c).arrAt 2 cfg2.N = Cert.Gcn.prod2 (F := Ideal) (V c main_v45) (V c main_arg4) :=
  (dat2 V c).arrAt_eq_of_cover 2 _ (fun t _ => flushed V c t) cover

end Cert.Region2

end
-- ==== Proof.Region3.lean ====
/-
  The fourth pallas_call's result array: the bias row added to every row.

  The call walks ten grid points; point t reads rows 10000·t … 10000·t + 9999 of the matrix and the one bias row, and
  writes back the same rows of the result.  What it writes is that block of ONE array — the matrix as the call finds it
  with the bias row added to every row — and the ten blocks cover all 100000 rows.
-/
import proofs.«108618_j12008728560135_1_alg».proof.Proof.Gen.KernelIdeal.Frame
import proofs.«108618_j12008728560135_1_alg».proof.Proof.Payloads
import Idealize.ShloMosaic.Lib.Pipeline.Value

set_option maxRecDepth 16384

noncomputable section

namespace Cert.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the first operand's and the result's blocks move down with the point,
    the second operand's block stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is rows 10000·t … 10000·t + 9999 of the matrix as the call finds it with the bias row added to every row. -/
theorem flushed (c : Dev nD) (t : Fin cfg3.N) :
    (dat3 V c).flushed 2 t
      = ((cfg3.win 2).blk t).view.read (Elt Ideal) (Cert.Gcn.addBias (F := Ideal) (V c main_v59) (V c main_v60)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨e0, e1, e2, e3, e4, e5⟩ := idx t
  have hN : t.val < 10 := lt_of_lt_of_eq t.isLt N_3
  funext j
  have hj0 : (j 0).val < 10000 := (j 0).isLt
  have hj1 : (j 1).val < 128 := (j 1).isLt
  have hr : t.val * 10000 + (j 0).val < 100000 := by omega
  have hj : j = ix2 (⟨(j 0).val, hj0⟩ : Fin 10000) (⟨(j 1).val, hj1⟩ : Fin 128) := by
    funext a
    match a with
    | ⟨0, _⟩ => rfl
    | ⟨1, _⟩ => rfl
  have hemb : ((cfg3.win 2).blk t).view.emb j
      = ix2 (⟨t.val * 10000 + (j 0).val, hr⟩ : Fin 100000) (⟨(j 1).val, hj1⟩ : Fin 128) := by
    funext a; apply Fin.ext
    match a with
    | ⟨0, _⟩ => show win3_2.index t (0 : Fin 2) * 10000 + 1 * (j 0).val = t.val * 10000 + (j 0).val; omega
    | ⟨1, _⟩ => show win3_2.index t (1 : Fin 2) * 128 + 1 * (j 1).val = (j 1).val; omega
  show k3_pay1 (iblk3 V c 0 t) (iblk3 V c 1 t) j
    = Cert.Gcn.addBias (F := Ideal) (V c main_v59) (V c main_v60) (((cfg3.win 2).blk t).view.emb j)
  rw [hemb]
  refine (congrArg (k3_pay1 (iblk3 V c 0 t) (iblk3 V c 1 t)) hj).trans ?_
  refine Cert.Payloads.block3 (V c main_v59) (V c main_v60) (iblk3 V c 0 t) (iblk3 V c 1 t)
    ⟨t.val * 10000 + (j 0).val, hr⟩ ⟨(j 0).val, hj0⟩ ⟨(j 1).val, hj1⟩ ?_ ?_
  · show V c main_v59 (((cfg3.win 0).blk t).view.emb (ix2 (⟨(j 0).val, hj0⟩ : Fin 10000) (⟨(j 1).val, hj1⟩ : Fin 128)))
      = V c main_v59 (ix2 (⟨t.val * 10000 + (j 0).val, hr⟩ : Fin 100000) (⟨(j 1).val, hj1⟩ : Fin 128))
    refine congrArg (V c main_v59) (funext fun a => Fin.ext ?_)
    match a with
    | ⟨0, _⟩ => show win3_0.index t (0 : Fin 2) * 10000 + 1 * (j 0).val = t.val * 10000 + (j 0).val; omega
    | ⟨1, _⟩ => show win3_0.index t (1 : Fin 2) * 128 + 1 * (j 1).val = (j 1).val; omega
  · show V c main_v60 (((cfg3.win 1).blk t).view.emb (ix2 (0 : Fin 1) (⟨(j 1).val, hj1⟩ : Fin 128)))
      = V c main_v60 (ix2 (0 : Fin 1) (⟨(j 1).val, hj1⟩ : Fin 128))
    refine congrArg (V c main_v60) (funext fun a => Fin.ext ?_)
    match a with
    | ⟨0, _⟩ => show win3_1.index t (0 : Fin 2) * 1 + 1 * 0 = 0; omega
    | ⟨1, _⟩ => show win3_1.index t (1 : Fin 2) * 128 + 1 * (j 1).val = (j 1).val; omega

/-- An index of the result array is in point t's block iff each coordinate is in the block's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v61).slice (win3_2.rect t)).set ↔ _
  rw [View.set_slice_whole, Rect.mem_set_unit]
  exact Iff.rfl

/-- Every row of the result array is in the block of the point its row number divided by 10000 names. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have ht : (i 0).val / 10000 < grid3.N := by rw [N_3]; omega
  obtain ⟨e0, e1, e2, e3, e4, e5⟩ := idx ⟨(i 0).val / 10000, ht⟩
  have e4' : win3_2.index ⟨(i 0).val / 10000, ht⟩ (0 : Fin 2) = (i 0).val / 10000 := e4
  refine ⟨⟨(i 0).val / 10000, ht⟩, flush3_2 _, ?_⟩
  rw [mem_blk]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    omega
  | ⟨1, _⟩ =>
    show win3_2.index ⟨(i 0).val / 10000, ht⟩ (1 : Fin 2) * 128 ≤ (i 1).val
      ∧ (i 1).val < win3_2.index ⟨(i 0).val / 10000, ht⟩ (1 : Fin 2) * 128 + 128
    omega

/-- The result array after the call is the matrix as the call finds it with the bias row added to every row. -/
theorem arr (c : Dev nD) :
    (dat3 V c).arrAt 2 cfg3.N = Cert.Gcn.addBias (F := Ideal) (V c main_v59) (V c main_v60) :=
  (dat3 V c).arrAt_eq_of_cover 2 _ (fun t _ => flushed V c t) cover

end Cert.Region3

end
-- ==== Proof.Leaves.lean ====
/-
  What the buffers the later host stretches read hold, boundary by boundary.

  The edge list with self loops (sources, destinations) and the per-edge weight are computed by the first host
  stretches from the edge-index argument alone; nothing afterwards writes them, so they are the same at every later
  boundary.  The argument arrays are never written at all.  Read at the boundary where a later stretch or a
  pallas_call picks them up, each is the corresponding piece of the convolution's definition, or the launch contents.
-/
import proofs.«108618_j12008728560135_1_alg».proof.Proof.Gen.KernelIdeal.Frame
import proofs.«108618_j12008728560135_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Leaves

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ) (ρ : Dev nD → PrngReg) (c : Dev nD)

/-! ## At the first pallas_call's entry: everything the first three host stretches computed -/

/-- The sources. -/
theorem W3_v3 : W3 m ρ c (Proc.devRef .tc main_v3) = Cert.Gcn.row0 (F := F) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results
  rfl

/-- The destinations. -/
theorem W3_v6 : W3 m ρ c (Proc.devRef .tc main_v6) = Cert.Gcn.col0 (F := F) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

set_option maxHeartbeats 4000000 in
/-- The edge weights. -/
theorem W3_v29 : W3 m ρ c (Proc.devRef .tc main_v29) = Cert.Gcn.norm1 (F := F) (m ((c : Thread nD τ).loc main_arg1)) := by
  show StableHlo.after hostOps0_2 (StableHlo.after hostOps0_1 (StableHlo.after hostOps0 (W0 m ρ c))) (Proc.devRef .tc main_v29) = _
  dsimp only [hostOps0, hostOps0_1, hostOps0_2]
  after_results_simp
  rfl

/-- An argument array at the first call's entry is as launched. -/
theorem W3_arg (b : Ref sig .tc)
    (h : StableHlo.after hostOps0_2 (StableHlo.after hostOps0_1 (StableHlo.after hostOps0 (W0 m ρ c))) (Proc.devRef .tc b)
      = W0 m ρ c (Proc.devRef .tc b)) :
    W3 m ρ c (Proc.devRef .tc b) = m ((c : Thread nD τ).loc b) := h

theorem W3_arg0 : W3 m ρ c (Proc.devRef .tc main_arg0) = (m ((c : Thread nD τ).loc main_arg0)) :=
  W3_arg m ρ c main_arg0 (by dsimp only [hostOps0, hostOps0_1, hostOps0_2]; after_results)
theorem W3_arg2 : W3 m ρ c (Proc.devRef .tc main_arg2) = (m ((c : Thread nD τ).loc main_arg2)) :=
  W3_arg m ρ c main_arg2 (by dsimp only [hostOps0, hostOps0_1, hostOps0_2]; after_results)
theorem W3_arg3 : W3 m ρ c (Proc.devRef .tc main_arg3) = (m ((c : Thread nD τ).loc main_arg3)) :=
  W3_arg m ρ c main_arg3 (by dsimp only [hostOps0, hostOps0_1, hostOps0_2]; after_results)
theorem W3_arg4 : W3 m ρ c (Proc.devRef .tc main_arg4) = (m ((c : Thread nD τ).loc main_arg4)) :=
  W3_arg m ρ c main_arg4 (by dsimp only [hostOps0, hostOps0_1, hostOps0_2]; after_results)
theorem W3_arg5 : W3 m ρ c (Proc.devRef .tc main_arg5) = (m ((c : Thread nD τ).loc main_arg5)) :=
  W3_arg m ρ c main_arg5 (by dsimp only [hostOps0, hostOps0_1, hostOps0_2]; after_results)

/-! ## At the first call's exit: it writes only its own result array -/

theorem W4_v3 : W4 m ρ c (Proc.devRef .tc main_v3) = Cert.Gcn.row0 (F := F) (m ((c : Thread nD τ).loc main_arg1)) :=
  (W4_of_ne m ρ c main_v3 (by decide)).trans (W3_v3 m ρ c)
theorem W4_v6 : W4 m ρ c (Proc.devRef .tc main_v6) = Cert.Gcn.col0 (F := F) (m ((c : Thread nD τ).loc main_arg1)) :=
  (W4_of_ne m ρ c main_v6 (by decide)).trans (W3_v6 m ρ c)
theorem W4_v29 : W4 m ρ c (Proc.devRef .tc main_v29) = Cert.Gcn.norm1 (F := F) (m ((c : Thread nD τ).loc main_arg1)) :=
  (W4_of_ne m ρ c main_v29 (by decide)).trans (W3_v29 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ## Past the fourth host stretch and the second and third calls: none of them writes these either -/

theorem W5_v3 : W5 m ρ c (Proc.devRef .tc main_v3) = Cert.Gcn.row0 (F := F) (m ((c : Thread nD τ).loc main_arg1)) := by
  show StableHlo.after hostOps1 (W4 m ρ c) (Proc.devRef .tc main_v3) = _
  dsimp only [hostOps1]
  after_results
  exact W4_v3 m ρ c
theorem W5_v6 : W5 m ρ c (Proc.devRef .tc main_v6) = Cert.Gcn.col0 (F := F) (m ((c : Thread nD τ).loc main_arg1)) := by
  show StableHlo.after hostOps1 (W4 m ρ c) (Proc.devRef .tc main_v6) = _
  dsimp only [hostOps1]
  after_results
  exact W4_v6 m ρ c
theorem W5_v29 : W5 m ρ c (Proc.devRef .tc main_v29) = Cert.Gcn.norm1 (F := F) (m ((c : Thread nD τ).loc main_arg1)) := by
  show StableHlo.after hostOps1 (W4 m ρ c) (Proc.devRef .tc main_v29) = _
  dsimp only [hostOps1]
  after_results
  exact W4_v29 m ρ c
theorem W5_arg4 : W5 m ρ c (Proc.devRef .tc main_arg4) = (m ((c : Thread nD τ).loc main_arg4)) := by
  show StableHlo.after hostOps1 (W4 m ρ c) (Proc.devRef .tc main_arg4) = _
  dsimp only [hostOps1]
  after_results
  exact W4_arg4 m ρ c
theorem W5_arg5 : W5 m ρ c (Proc.devRef .tc main_arg5) = (m ((c : Thread nD τ).loc main_arg5)) := by
  show StableHlo.after hostOps1 (W4 m ρ c) (Proc.devRef .tc main_arg5) = _
  dsimp only [hostOps1]
  after_results
  exact W4_arg5 m ρ c

theorem W6_arg4 : W6 m ρ c (Proc.devRef .tc main_arg4) = (m ((c : Thread nD τ).loc main_arg4)) :=
  (W6_of_ne m ρ c main_arg4 (by decide)).trans (W5_arg4 m ρ c)

theorem W7_v3 : W7 m ρ c (Proc.devRef .tc main_v3) = Cert.Gcn.row0 (F := F) (m ((c : Thread nD τ).loc main_arg1)) :=
  (W7_of_ne m ρ c main_v3 (by decide)).trans ((W6_of_ne m ρ c main_v3 (by decide)).trans (W5_v3 m ρ c))
theorem W7_v6 : W7 m ρ c (Proc.devRef .tc main_v6) = Cert.Gcn.col0 (F := F) (m ((c : Thread nD τ).loc main_arg1)) :=
  (W7_of_ne m ρ c main_v6 (by decide)).trans ((W6_of_ne m ρ c main_v6 (by decide)).trans (W5_v6 m ρ c))
theorem W7_v29 : W7 m ρ c (Proc.devRef .tc main_v29) = Cert.Gcn.norm1 (F := F) (m ((c : Thread nD τ).loc main_arg1)) :=
  (W7_of_ne m ρ c main_v29 (by decide)).trans ((W6_of_ne m ρ c main_v29 (by decide)).trans (W5_v29 m ρ c))
theorem W7_arg5 : W7 m ρ c (Proc.devRef .tc main_arg5) = (m ((c : Thread nD τ).loc main_arg5)) :=
  (W7_of_ne m ρ c main_arg5 (by decide)).trans ((W6_of_ne m ρ c main_arg5 (by decide)).trans (W5_arg5 m ρ c))

/-! ## A bias vector reshaped to one row is the bias vector broadcast into one row -/

theorem reshape_bias (b : (⟨Cert.ReferenceIdeal.S128, .f32⟩ : BufTy).Contents (Elt F)) (h : S128.ShapeCasts S1x128)
    (i : S1x128.Idx) : shapeCast S1x128 b h i = Cert.Gcn.biasRow (F := F) b i := by
  obtain ⟨u, q, rfl⟩ : ∃ (u : Fin 1) (q : Fin 128), i = ix2 u q :=
    ⟨⟨(i 0).val, (i 0).isLt⟩, ⟨(i 1).val, (i 1).isLt⟩, by
      funext a
      match a with
      | ⟨0, _⟩ => rfl
      | ⟨1, _⟩ => rfl⟩
  rw [shapeCast_a_1a_apply]
  unfold Cert.Gcn.biasRow
  exact (broadcastInDim_apply _ _ b (ix2 u q) (ix1 q) (fun a => by
    match a with
    | ⟨0, _⟩ => rfl)).symm

end Cert.Leaves

end
-- ==== Proof.KernelValue.lean ====
/-
  The kernel program's result, as the two-layer convolution of its argument arrays.

  Boundary by boundary: the first pallas_call leaves x · W1; the host stretch after it applies the sparse step to that;
  the second call adds the first bias row and clips at zero; the third multiplies by W2; the next host stretch applies
  the sparse step again; the last call adds the second bias row.  Each pallas_call's result array is one function of
  the arrays it finds (the four closed forms), each host stretch's result is its operations' composed term, and the
  sources, destinations and weights every stretch reads are the ones computed once from the edge list.
-/
import proofs.«108618_j12008728560135_1_alg».proof.Proof.Region0
import proofs.«108618_j12008728560135_1_alg».proof.Proof.Region1
import proofs.«108618_j12008728560135_1_alg».proof.Proof.Region2
import proofs.«108618_j12008728560135_1_alg».proof.Proof.Region3
import proofs.«108618_j12008728560135_1_alg».proof.Proof.Leaves

set_option maxRecDepth 16384

noncomputable section

namespace Cert.KernelValue

open Cert.KernelIdeal Cert.KernelIdeal.Gen Idealize.ShloMosaic Idealize.ShloMosaic.TcCoe Idealize.SL.Sem
open Idealize.ShloMosaic.StableHlo Cert.Leaves

variable (m : (ℓ : Loc nD τ sig) → Buf (Elt Ideal) ℓ) (ρ : Dev nD → PrngReg) (c : Dev nD)

/-- x · W1. -/
def xw1 : (⟨Cert.ReferenceIdeal.S100000x128, .f32⟩ : BufTy).Contents (Elt Ideal) :=
  Cert.Gcn.prod1 (F := Ideal) (m ((c : Thread nD τ).loc main_arg0)) (m ((c : Thread nD τ).loc main_arg2))

/-- The sparse step applied to x · W1. -/
def agg1 : (⟨Cert.ReferenceIdeal.S100000x128, .f32⟩ : BufTy).Contents (Elt Ideal) :=
  Cert.Gcn.agg (F := Ideal) (m ((c : Thread nD τ).loc main_arg1)) (xw1 m c)

/-- The hidden layer: bias added, negative entries replaced by zero. -/
def hid : (⟨Cert.ReferenceIdeal.S100000x128, .f32⟩ : BufTy).Contents (Elt Ideal) :=
  Cert.Gcn.addBiasRelu (F := Ideal) (agg1 m c) (Cert.Gcn.biasRow (F := Ideal) (m ((c : Thread nD τ).loc main_arg3)))

/-- h · W2. -/
def xw2 : (⟨Cert.ReferenceIdeal.S100000x128, .f32⟩ : BufTy).Contents (Elt Ideal) :=
  Cert.Gcn.prod2 (F := Ideal) (hid m c) (m ((c : Thread nD τ).loc main_arg4))

/-- The sparse step applied to h · W2. -/
def agg2 : (⟨Cert.ReferenceIdeal.S100000x128, .f32⟩ : BufTy).Contents (Elt Ideal) :=
  Cert.Gcn.agg (F := Ideal) (m ((c : Thread nD τ).loc main_arg1)) (xw2 m c)

/-- After the first pallas_call its result array holds x · W1. -/
theorem v30 : W4 m ρ c (Proc.devRef .tc main_v30) = xw1 m c := by
  refine (W4_arr m ρ c 2).trans ((Cert.Region0.arr (V3 m ρ) c).trans ?_)
  show Cert.Gcn.prod1 (F := Ideal) (W3 m ρ c (Proc.devRef .tc main_arg0)) (W3 m ρ c (Proc.devRef .tc main_arg2)) = _
  rw [W3_arg0 m ρ c, W3_arg2 m ρ c]
  rfl

set_option maxHeartbeats 4000000 in
/-- The host stretch after it: gather the sources' rows, scale by the weights, add up at the destinations. -/
theorem v43 : W5 m ρ c (Proc.devRef .tc main_v43) = agg1 m c := by
  show StableHlo.after hostOps1 (W4 m ρ c) (Proc.devRef .tc main_v43) = _
  dsimp only [hostOps1]
  after_results_simp
  rw [W4_v3 m ρ c, W4_v6 m ρ c, W4_v29 m ρ c, v30 m ρ c]
  rfl

/-- The first bias vector as one row. -/
theorem v44 : W5 m ρ c (Proc.devRef .tc main_v44) = Cert.Gcn.biasRow (F := Ideal) (m ((c : Thread nD τ).loc main_arg3)) := by
  show StableHlo.after hostOps1 (W4 m ρ c) (Proc.devRef .tc main_v44) = _
  dsimp only [hostOps1]
  after_results
  rw [W4_arg3 m ρ c]
  exact funext fun i => reshape_bias _ _ i

/-- After the second pallas_call its result array holds the hidden layer. -/
theorem v45 : W6 m ρ c (Proc.devRef .tc main_v45) = hid m c := by
  refine (W6_arr m ρ c 2).trans ((Cert.Region1.arr (V5 m ρ) c).trans ?_)
  show Cert.Gcn.addBiasRelu (F := Ideal) (W5 m ρ c (Proc.devRef .tc main_v43)) (W5 m ρ c (Proc.devRef .tc main_v44)) = _
  rw [v43 m ρ c, v44 m ρ c]
  rfl

/-- After the third pallas_call its result array holds h · W2. -/
theorem v46 : W7 m ρ c (Proc.devRef .tc main_v46) = xw2 m c := by
  refine (W7_arr m ρ c 2).trans ((Cert.Region2.arr (V6 m ρ) c).trans ?_)
  show Cert.Gcn.prod2 (F := Ideal) (W6 m ρ c (Proc.devRef .tc main_v45)) (W6 m ρ c (Proc.devRef .tc main_arg4)) = _
  rw [v45 m ρ c, W6_arg4 m ρ c]
  rfl

set_option maxHeartbeats 4000000 in
/-- The last host stretch: the sparse step again, on h · W2. -/
theorem v59 : W8 m ρ c (Proc.devRef .tc main_v59) = agg2 m c := by
  show StableHlo.after hostOps3 (W7 m ρ c) (Proc.devRef .tc main_v59) = _
  dsimp only [hostOps3]
  after_results_simp
  rw [W7_v3 m ρ c, W7_v6 m ρ c, W7_v29 m ρ c, v46 m ρ c]
  rfl

/-- The second bias vector as one row. -/
theorem v60 : W8 m ρ c (Proc.devRef .tc main_v60) = Cert.Gcn.biasRow (F := Ideal) (m ((c : Thread nD τ).loc main_arg5)) := by
  show StableHlo.after hostOps3 (W7 m ρ c) (Proc.devRef .tc main_v60) = _
  dsimp only [hostOps3]
  after_results
  rw [W7_arg5 m ρ c]
  exact funext fun i => reshape_bias _ _ i

/-- After the last pallas_call the result buffer holds the two-layer convolution of the argument arrays. -/
theorem v61 : W9 m ρ c (Proc.devRef .tc main_v61)
    = Cert.Gcn.out (F := Ideal) (m ((c : Thread nD τ).loc main_arg0)) (m ((c : Thread nD τ).loc main_arg1)) (m ((c : Thread nD τ).loc main_arg2)) (Cert.Gcn.biasRow (F := Ideal) (m ((c : Thread nD τ).loc main_arg3)))
        (m ((c : Thread nD τ).loc main_arg4)) (Cert.Gcn.biasRow (F := Ideal) (m ((c : Thread nD τ).loc main_arg5))) := by
  refine (W9_arr m ρ c 2).trans ((Cert.Region3.arr (V8 m ρ) c).trans ?_)
  show Cert.Gcn.addBias (F := Ideal) (W8 m ρ c (Proc.devRef .tc main_v59)) (W8 m ρ c (Proc.devRef .tc main_v60)) = _
  rw [v59 m ρ c, v60 m ρ c]
  rfl

end Cert.KernelValue

end
-- ==== Proof.RefSide.lean ====
/-
  The reference program's result is the two-layer graph convolution of its argument arrays.
-/
import proofs.«108618_j12008728560135_1_alg».proof.Proof.Spec
import proofs.«108618_j12008728560135_1_alg».proof.Proof.RefRunPatched

noncomputable section

namespace Cert.RefSide

open Cert.ReferenceIdeal Cert.ReferenceIdeal.Gen Idealize.ShloMosaic Idealize.ShloMosaic.TcCoe Idealize.SL.Sem

variable {F : FTy → Type} [FloatOps F]

/-- The term the reference's run ends at is `Gcn.out` of the six argument arrays: its operations, in order, are the
    two layers'; the normalisation it recomputes for the second layer is the first layer's, spelt again. -/
theorem res_eq (m : (ℓ : Loc nD τ sig) → Buf (Elt F) ℓ) (c : Dev nD) :
    Cert.ReferenceIdeal.ValueP.res_main_v87 (F := F) m c
      = Cert.Gcn.out (F := F) (m ((c.tc : Thread nD τ).loc main_arg0)) (m ((c.tc : Thread nD τ).loc main_arg1))
          (m ((c.tc : Thread nD τ).loc main_arg2)) (Cert.Gcn.biasRow (m ((c.tc : Thread nD τ).loc main_arg3)))
          (m ((c.tc : Thread nD τ).loc main_arg4)) (Cert.Gcn.biasRow (m ((c.tc : Thread nD τ).loc main_arg5))) := by
  unfold Cert.ReferenceIdeal.ValueP.res_main_v87
  rfl

end Cert.RefSide

end
-- ==== Proof.lean ====
/-
  A two-layer graph convolution: four pallas_calls among host operations against the plain host program.

  Both programs append a self loop per node to the edge list, count in-degrees, take dinv = deg^(-1/2) where the degree
  is positive and zero elsewhere, and weigh every edge by dinv(source) · dinv(destination).  A layer is then
  out = S (X · W) + b, where S sends each edge's source row, times the edge's weight, to the edge's destination and
  adds up what arrives; between the layers negative entries become zero.  The kernel program computes X · W in a
  pallas_call of ten row blocks (the operands converted to a narrower float format on the way in, which on the extended
  reals is the identity, and accumulated from zero, which adds nothing), leaves S to the same host operations the
  reference uses, and adds the bias — and clips — in a second pallas_call of ten row blocks; the reference uses a host
  matrix product and host additions, and recomputes the weights for its second layer from the same edge list.

  So on the extended reals the two results are one function of the six argument arrays (`Cert.Gcn.out`): a block of
  rows of a product is the product of that block of rows, an entry of a sum with a broadcast row is the sum of the
  entries, and the sparse step is literally the same term on both sides.  No algebraic law beyond that is used, and
  the precondition (finite inputs) is never opened.

  The three frames: the two kernel programs' are the generated ones; the reference's is its run with the result
  dropped.  The idealization rewrote no operation, so `preserves` has nothing to state.
-/
import proofs.«108618_j12008728560135_1_alg».proof.Defs
import proofs.«108618_j12008728560135_1_alg».proof.Proof.Gen.Kernel
import proofs.«108618_j12008728560135_1_alg».proof.Proof.Gen.Kernel.Skeleton
import proofs.«108618_j12008728560135_1_alg».proof.Proof.Gen.Kernel.Launch
import proofs.«108618_j12008728560135_1_alg».proof.Proof.Gen.Kernel.Points
import proofs.«108618_j12008728560135_1_alg».proof.Proof.Gen.Kernel.Frame
import proofs.«108618_j12008728560135_1_alg».proof.Proof.Gen.KernelIdeal
import proofs.«108618_j12008728560135_1_alg».proof.Proof.Gen.KernelIdeal.Skeleton
import proofs.«108618_j12008728560135_1_alg».proof.Proof.Gen.KernelIdeal.Launch
import proofs.«108618_j12008728560135_1_alg».proof.Proof.Gen.KernelIdeal.Points
import proofs.«108618_j12008728560135_1_alg».proof.Proof.Gen.KernelIdeal.Frame
import proofs.«108618_j12008728560135_1_alg».proof.Proof.Gen.ReferenceIdeal
import proofs.«108618_j12008728560135_1_alg».proof.Proof.Gen.Pre_finite_inputs
import proofs.«108618_j12008728560135_1_alg».proof.Proof.KernelRun
import proofs.«108618_j12008728560135_1_alg».proof.Proof.KernelValue
import proofs.«108618_j12008728560135_1_alg».proof.Proof.RefSide
import Idealize.ShloMosaic.Adequacy
import Idealize.ShloMosaic.Init

noncomputable section

namespace Cert.Proof

open Idealize.ShloMosaic Idealize.SL.Sem

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The kernel program's run with its result read: the result buffer ends at the two-layer convolution of the
    argument arrays, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v61)
          = Cert.Gcn.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.Gcn.biasRow (F := Ideal) (m ((c.tc : Thread Cert.KernelIdeal.nD Cert.KernelIdeal.τ).loc Cert.KernelIdeal.main_arg3)))
              (m ((c.tc : Thread Cert.KernelIdeal.nD Cert.KernelIdeal.τ).loc Cert.KernelIdeal.main_arg4)) (Cert.Gcn.biasRow (F := Ideal) (m ((c.tc : Thread Cert.KernelIdeal.nD Cert.KernelIdeal.τ).loc Cert.KernelIdeal.main_arg5)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelValue.v61 m ρ c), (h c).2⟩)
    (Cert.KernelRun.run_last (F := Ideal) m ρ)

/-- From memories that agree on the arguments both programs end at the same function of them: the kernel program by
    its run read boundary by boundary, the reference by its operations' composed term. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.RefSide.res_eq, (hagree c).1, (hagree c).2.1, (hagree c).2.2.1, (hagree c).2.2.2.1, (hagree c).2.2.2.2.1,
    (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
